-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S4096x8 : Shape := ⟨2, ![4096, 8]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S4096x8 : S_.BroadcastsInDim S4096x8 (![] : Fin 0 → Fin S4096x8.rank)
  reducesTo_S4096x8_S_d0_1 : S4096x8.ReducesTo [0, 1] S_

variable [Facts]

def fn_part1 {F : FTy → Type} [FloatOps F] (main_arg4 : FVec F S4096x8 .f32) (main_v13 : IVec S_ 1) (main_v16 : IVec S4096x8 1) : IVec S_ 1 :=
  let main_c_5 : IVec S_ 1 := constantI S_ 1 1#1
  let main_v17 : IVec S_ 1 := (fun x v => Host.reduce IntOp.andi x v reducesTo_S4096x8_S_d0_1 h_S_) main_v16 main_c_5
  let main_v18 : IVec S_ 1 := andi main_v13 main_v17
  let main_v19 : FVec F S4096x8 .f32 := Host.absf main_arg4
  let main_cst_6 : FVec F S_ .f32 := constant S_ .f32 0x7F800000#32
  let main_v20 : FVec F S4096x8 .f32 := broadcastInDim S4096x8 ![] bcast_S_S4096x8 main_cst_6
  let main_v21 : IVec S4096x8 1 := cmpf .olt main_v19 main_v20
  let main_c_7 : IVec S_ 1 := constantI S_ 1 1#1
  let main_v22 : IVec S_ 1 := (fun x v => Host.reduce IntOp.andi x v reducesTo_S4096x8_S_d0_1 h_S_) main_v21 main_c_7
  let main_v23 : IVec S_ 1 := andi main_v18 main_v22
  main_v23

def fn {F : FTy → Type} [FloatOps F] (main_arg0 : FVec F S8192x4096 .f32) (main_arg1 : FVec F S4096x4096 .f32) (main_arg2 : FVec F S4096 .f32) (main_arg3 : FVec F S4096x8 .f32) (main_arg4 : FVec F S4096x8 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096x8 .f32 := Host.absf main_arg3
  let main_cst_4 : FVec F S_ .f32 := constant S_ .f32 0x7F800000#32
  let main_v15 : FVec F S4096x8 .f32 := broadcastInDim S4096x8 ![] bcast_S_S4096x8 main_cst_4
  let main_v16 : IVec S4096x8 1 := cmpf .olt main_v14 main_v15
  fn_part1 (F := F) main_arg4 main_v13 main_v16
-- ==== Kernel.lean ====
abbrev S8192x4096 : Shape := ⟨2, ![8192, 4096]⟩
abbrev S4096x4096 : Shape := ⟨2, ![4096, 4096]⟩
abbrev S4096 : Shape := ⟨1, ![4096]⟩
abbrev S4096x8 : Shape := ⟨2, ![4096, 8]⟩
abbrev S8192x8 : Shape := ⟨2, ![8192, 8]⟩
abbrev S_ : Shape := ⟨0, ![]⟩
abbrev S1x4096 : Shape := ⟨2, ![1, 4096]⟩
abbrev S1024x2048 : Shape := ⟨2, ![1024, 2048]⟩
abbrev S512x2048 : Shape := ⟨2, ![512, 2048]⟩
abbrev S1x512 : Shape := ⟨2, ![1, 512]⟩
abbrev S1024x8 : Shape := ⟨2, ![1024, 8]⟩
abbrev S512x8 : Shape := ⟨2, ![512, 8]⟩
abbrev S1024x512 : Shape := ⟨2, ![1024, 512]⟩
abbrev S2048x512 : Shape := ⟨2, ![2048, 512]⟩
abbrev S8x512 : Shape := ⟨2, ![8, 512]⟩

abbrev nBuf : Space → Nat
  | .hbm => 11
  | .vmem => 13
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096x8, .f32⟩
  | .hbm, ⟨4, _⟩ => ⟨S4096x8, .f32⟩
  | .hbm, ⟨5, _⟩ => ⟨S8192x8, .f32⟩
  | .hbm, ⟨6, _⟩ => ⟨S_, .f32⟩
  | .hbm, ⟨7, _⟩ => ⟨S8192x8, .f32⟩
  | .hbm, ⟨8, _⟩ => ⟨S8192x8, .f32⟩
  | .hbm, ⟨9, _⟩ => ⟨S1x4096, .f32⟩
  | .hbm, ⟨10, _⟩ => ⟨S8192x4096, .f32⟩
  | .local _ .vmem, ⟨0, _⟩ => ⟨S1024x2048, .f32⟩
  | .local _ .vmem, ⟨1, _⟩ => ⟨S1024x2048, .f32⟩
  | .local _ .vmem, ⟨2, _⟩ => ⟨S512x2048, .f32⟩
  | .local _ .vmem, ⟨3, _⟩ => ⟨S512x2048, .f32⟩
  | .local _ .vmem, ⟨4, _⟩ => ⟨S1x512, .f32⟩
  | .local _ .vmem, ⟨5, _⟩ => ⟨S1x512, .f32⟩
  | .local _ .vmem, ⟨6, _⟩ => ⟨S1024x8, .f32⟩
  | .local _ .vmem, ⟨7, _⟩ => ⟨S1024x8, .f32⟩
  | .local _ .vmem, ⟨8, _⟩ => ⟨S512x8, .f32⟩
  | .local _ .vmem, ⟨9, _⟩ => ⟨S512x8, .f32⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 8, 2], ![false, false, false]⟩

def k0_cond2 (i : grid0.Coords) : BitVec 1 :=
  let arg2 : BitVec 32 := BitVec.ofNat 32 (i 2).val
  let c1_i32 : BitVec 32 := 1#32
  let v14 : BitVec 1 := Scalar.cmpi .eq arg2 c1_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S512x8 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  bcast_S_S8192x8 : S_.BroadcastsInDim S8192x8 (![] : Fin 0 → Fin S8192x8.rank)
  shapeCasts_S4096_S1x4096 : S4096.ShapeCasts S1x4096
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1024x2048_S1024x2048_0_0 : ∀ a, (![0, 0] : Fin 2 → Nat) a + S1024x2048.size a ≤ S1024x2048.size a
  h_S1024x2048 : 0 < S1024x2048.numel
  bitsLt_bf16_f32 : FTy.bits .bf16 < FTy.bits .f32
  inb_S512x2048_S512x2048_0_0 : ∀ a, (![0, 0] : Fin 2 → Nat) a + S512x2048.size a ≤ S512x2048.size a
  h_S512x2048 : 0 < S512x2048.numel
  transposes_S512x2048_p1_0_S2048x512 : S512x2048.Transposes [1, 0] S2048x512
  inb_S1024x8_S1024x8_0_0 : ∀ a, (![0, 0] : Fin 2 → Nat) a + S1024x8.size a ≤ S1024x8.size a
  h_S1024x8 : 0 < S1024x8.numel
  shapeCasts_S1024x8_S1024x8 : S1024x8.ShapeCasts S1024x8
  inb_S512x8_S512x8_0_0 : ∀ a, (![0, 0] : Fin 2 → Nat) a + S512x8.size a ≤ S512x8.size a
  h_S512x8 : 0 < S512x8.numel
  transposes_S512x8_p1_0_S8x512 : S512x8.Transposes [1, 0] S8x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  dot_S8192x4096_S4096x8_S8192x8_1_0_0_1_n_n_wf : DotDims.WF S8192x4096 S4096x8 S8192x8 [1] [0] [0] [1] [] []
  dot_S1024x2048_S2048x512_S1024x512_1_0_0_1_n_n_wf : DotDims.WF S1024x2048 S2048x512 S1024x512 [1] [0] [0] [1] [] []
  dot_S1024x8_S8x512_S1024x512_1_0_0_1_n_n_wf : DotDims.WF S1024x8 S8x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x4096.size a
  hwx0_0 : ∀ i : grid0.Coords, EltTy.bits .f32 = 32 ∨ (Rect.block (s := S8192x4096) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S4096x4096.size a
  hwx0_1 : ∀ i : grid0.Coords, EltTy.bits .f32 = 32 ∨ (Rect.block (s := S4096x4096) S512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x4096.size a
  hwx0_2 : ∀ i : grid0.Coords, EltTy.bits .f32 = 32 ∨ (Rect.block (s := S1x4096) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x8.size a ≤ S8192x8.size a
  hwx0_3 : ∀ i : grid0.Coords, EltTy.bits .f32 = 32 ∨ (Rect.block (s := S8192x8) S1024x8.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x8.size a ≤ S4096x8.size a
  hwx0_4 : ∀ i : grid0.Coords, EltTy.bits .f32 = 32 ∨ (Rect.block (s := S4096x8) S512x8.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x512.size a ≤ S8192x4096.size a
  hwx0_5 : ∀ i : grid0.Coords, EltTy.bits .f32 = 32 ∨ (Rect.block (s := S8192x4096) S1024x512.size (cc0_transform_5 i) (hinb0_5 i)).WholeWords (EltTy.packing .f32)

variable [Facts₀]

def dot_S8192x4096_S4096x8_S8192x8_1_0_0_1_n_n : DotDims S8192x4096 S4096x8 S8192x8 where
  lhsContracting := [1]
  rhsContracting := [0]
  lhsNonContracting := [0]
  rhsNonContracting := [1]
  lhsBatch := []
  rhsBatch := []
  wf := dot_S8192x4096_S4096x8_S8192x8_1_0_0_1_n_n_wf
def dot_S1024x2048_S2048x512_S1024x512_1_0_0_1_n_n : DotDims S1024x2048 S2048x512 S1024x512 where
  lhsContracting := [1]
  rhsContracting := [0]
  lhsNonContracting := [0]
  rhsNonContracting := [1]
  lhsBatch := []
  rhsBatch := []
  wf := dot_S1024x2048_S2048x512_S1024x512_1_0_0_1_n_n_wf
def dot_S1024x8_S8x512_S1024x512_1_0_0_1_n_n : DotDims S1024x8 S8x512 S1024x512 where
  lhsContracting := [1]
  rhsContracting := [0]
  lhsNonContracting := [0]
  rhsNonContracting := [1]
  lhsBatch := []
  rhsBatch := []
  wf := dot_S1024x8_S8x512_S1024x512_1_0_0_1_n_n_wf

abbrev win0_0 : Pipeline.Window sig grid0 :=
  Pipeline.Window.ofSpec (Memref.whole main_arg0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x8.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S512x8.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1024x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S4096x8 : Shape := ⟨2, ![4096, 8]⟩
abbrev S8x4096 : Shape := ⟨2, ![8, 4096]⟩
abbrev S_ : Shape := ⟨0, ![]⟩
abbrev S1x4096 : Shape := ⟨2, ![1, 4096]⟩

abbrev nBuf : Space → Nat
  | .hbm => 18
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096x8, .f32⟩
  | .hbm, ⟨4, _⟩ => ⟨S4096x8, .f32⟩
  | .hbm, ⟨5, _⟩ => ⟨S8x4096, .f32⟩
  | .hbm, ⟨6, _⟩ => ⟨S4096x4096, .f32⟩
  | .hbm, ⟨7, _⟩ => ⟨S_, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S8192x4096, .f32⟩
  | .hbm, ⟨12, _⟩ => ⟨S1x4096, .f32⟩
  | .hbm, ⟨13, _⟩ => ⟨S8192x4096, .f32⟩
  | .hbm, ⟨14, _⟩ => ⟨S8192x4096, .f32⟩
  | .hbm, ⟨15, _⟩ => ⟨S4096x4096, .f32⟩
  | .hbm, ⟨16, _⟩ => ⟨S8192x4096, .f32⟩
  | .hbm, ⟨17, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]

class Facts₀ : Prop where
  transposes_S4096x8_S8x4096_1_0 : S4096x8.Transposes [1, 0] S8x4096
  bcast_S_S4096x4096 : S_.BroadcastsInDim S4096x4096 (![] : Fin 0 → Fin S4096x4096.rank)
  transposes_S4096x4096_S4096x4096_1_0 : S4096x4096.Transposes [1, 0] S4096x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S4096x8_S8x4096_S4096x4096_1_0_0_1_n_n_wf : DotDims.WF S4096x8 S8x4096 S4096x4096 [1] [0] [0] [1] [] []
  dot_S8192x4096_S4096x4096_S8192x4096_1_0_0_1_n_n_wf : DotDims.WF S8192x4096 S4096x4096 S8192x4096 [1] [0] [0] [1] [] []

variable [Facts₀]

def dot_S4096x8_S8x4096_S4096x4096_1_0_0_1_n_n : DotDims S4096x8 S8x4096 S4096x4096 where
  lhsContracting := [1]
  rhsContracting := [0]
  lhsNonContracting := [0]
  rhsNonContracting := [1]
  lhsBatch := []
  rhsBatch := []
  wf := dot_S4096x8_S8x4096_S4096x4096_1_0_0_1_n_n_wf
def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.Pieces.lean ====
/-
  What one run of the body leaves behind, as pure functions of the blocks it loaded. The body keeps a running [1024, 512]
  accumulator across the two steps of the contraction axis:

    * at the first step it zeroes the accumulator and then adds this step's product `x_blk · w_blkᵀ` to it, so it leaves
      `step x_blk w_blk zero` there and writes nothing out;
    * at the second step it adds this step's product to what the first step left (`acc`), leaving `step x_blk w_blk acc`,
      and writes out `epilogue xb_blk a_blk (step x_blk w_blk acc) b_blk` — the new accumulator plus the bias row plus
      the rank-8 product `xb_blk · a_blkᵀ`.

  (`zero`, `step`, `epilogue` are the program's three store payloads `k0_pay1`, `k0_pay2`, `k0_pay3`.) Every load and
  store is of a whole buffer at offset zero, so a later load of a buffer reads exactly what the last store put there.
  Stated for every float instance; used on the extended reals.
-/
import proofs.«115972_j17188459119051_2_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.ShloMosaic.Tactic Idealize.SL.Sem

variable {F : FTy → Type} [FloatOps F]

/-- the offsets of a whole-buffer access -/
theorem hz : (![0, 0] : Fin 2 → Nat) = fun _ => 0 := funext fun a => by fin_cases a <;> rfl

/-- SECOND STEP, the accumulator: what the first step left plus this step's product. -/
theorem acc_second (c : Dev nD) (i : grid0.Coords) (arg3 : Memref sig .tc .vmem S1024x2048 .f32) (harg3 : arg3.IsWhole) (arg4 : Memref sig .tc .vmem S512x2048 .f32) (harg4 : arg4.IsWhole) (arg5 : Memref sig .tc .vmem S1x512 .f32) (harg5 : arg5.IsWhole) (arg6 : Memref sig .tc .vmem S1024x8 .f32) (harg6 : arg6.IsWhole) (arg7 : Memref sig .tc .vmem S512x8 .f32) (harg7 : arg7.IsWhole) (arg8 : Memref sig .tc .vmem S1024x512 .f32) (harg8 : arg8.IsWhole) (arg9 : Memref sig .tc .vmem S1024x512 .f32) (harg9 : arg9.IsWhole) (hc0 : ¬cond0_0 i) (hc1 : cond0_1 i)
    (x0 : Vec F S1024x2048 .f32) (x1 : Vec F S512x2048 .f32) (x2 : Vec F S1x512 .f32) (x3 : Vec F S1024x8 .f32) (x4 : Vec F S512x8 .f32) (xs0 : Vec F S1024x512 .f32) :
    sout0_B_0 c i arg3 harg3 arg4 harg4 arg5 harg5 arg6 harg6 arg7 harg7 arg8 harg8 arg9 harg9 hc0 hc1 x0 x1 x2 x3 x4 xs0 = k0_pay2 x0 x1 xs0 := by
  unfold sout0_B_0
  rw [View.read_writes_eq_canon _ _ _ (scover0_B_0 c i arg3 harg3 arg4 harg4 arg5 harg5 arg6 harg6 arg7 harg7 arg8 harg8 arg9 harg9 hc0 hc1 x0 x1 x2 x3 x4 xs0)]
  unfold kernelRun0_B
  dsimp only
  sl_unfold_words
  rw [View.canon_unit_zero hz]
  simp only [View.readAt_eq_ld, harg3.read_unread, harg4.read_unread, harg5.read_unread, harg6.read_unread, harg7.read_unread,
    harg9.read_unread, View.ld_unit_zero (S := S1024x2048) hz, View.ld_unit_zero (S := S512x2048) hz,
    View.ld_unit_zero (S := S1024x512) hz, View.ld_unit_zero (S := S1x512) hz, View.ld_unit_zero (S := S1024x8) hz,
    View.ld_unit_zero (S := S512x8) hz]

/-- SECOND STEP, the output block: the new accumulator (read back after its store), plus the bias row, plus the rank-8
    product. -/
theorem out_second (c : Dev nD) (i : grid0.Coords) (arg3 : Memref sig .tc .vmem S1024x2048 .f32) (harg3 : arg3.IsWhole) (arg4 : Memref sig .tc .vmem S512x2048 .f32) (harg4 : arg4.IsWhole) (arg5 : Memref sig .tc .vmem S1x512 .f32) (harg5 : arg5.IsWhole) (arg6 : Memref sig .tc .vmem S1024x8 .f32) (harg6 : arg6.IsWhole) (arg7 : Memref sig .tc .vmem S512x8 .f32) (harg7 : arg7.IsWhole) (arg8 : Memref sig .tc .vmem S1024x512 .f32) (harg8 : arg8.IsWhole) (arg9 : Memref sig .tc .vmem S1024x512 .f32) (harg9 : arg9.IsWhole) (hc0 : ¬cond0_0 i) (hc1 : cond0_1 i)
    (x0 : Vec F S1024x2048 .f32) (x1 : Vec F S512x2048 .f32) (x2 : Vec F S1x512 .f32) (x3 : Vec F S1024x8 .f32) (x4 : Vec F S512x8 .f32) (xs0 : Vec F S1024x512 .f32) :
    out0_B_5 c i arg3 harg3 arg4 harg4 arg5 harg5 arg6 harg6 arg7 harg7 arg8 harg8 arg9 harg9 hc0 hc1 x0 x1 x2 x3 x4 xs0 = k0_pay3 x3 x4 (k0_pay2 x0 x1 xs0) x2 := by
  unfold out0_B_5
  rw [View.read_writes_eq_canon _ _ _ (cover0_B_5 c i arg3 harg3 arg4 harg4 arg5 harg5 arg6 harg6 arg7 harg7 arg8 harg8 arg9 harg9 hc0 hc1 x0 x1 x2 x3 x4 xs0)]
  unfold kernelRun0_B
  dsimp only
  sl_unfold_words
  rw [View.canon_unit_zero hz, View.readCov_unit_zero (S := S1024x512) _ hz]
  simp only [View.readAt_eq_ld, harg3.read_unread, harg4.read_unread, harg5.read_unread, harg6.read_unread, harg7.read_unread,
    harg9.read_unread, View.ld_unit_zero (S := S1024x2048) hz, View.ld_unit_zero (S := S512x2048) hz,
    View.ld_unit_zero (S := S1024x512) hz, View.ld_unit_zero (S := S1x512) hz, View.ld_unit_zero (S := S1024x8) hz,
    View.ld_unit_zero (S := S512x8) hz]

/-- FIRST STEP, the accumulator: the zero block (stored, then read back) plus this step's product. -/
theorem acc_first (c : Dev nD) (i : grid0.Coords) (arg3 : Memref sig .tc .vmem S1024x2048 .f32) (harg3 : arg3.IsWhole) (arg4 : Memref sig .tc .vmem S512x2048 .f32) (harg4 : arg4.IsWhole) (arg5 : Memref sig .tc .vmem S1x512 .f32) (harg5 : arg5.IsWhole) (arg6 : Memref sig .tc .vmem S1024x8 .f32) (harg6 : arg6.IsWhole) (arg7 : Memref sig .tc .vmem S512x8 .f32) (harg7 : arg7.IsWhole) (arg8 : Memref sig .tc .vmem S1024x512 .f32) (harg8 : arg8.IsWhole) (arg9 : Memref sig .tc .vmem S1024x512 .f32) (harg9 : arg9.IsWhole) (hc0 : cond0_0 i) (hc1 : ¬cond0_1 i)
    (x0 : Vec F S1024x2048 .f32) (x1 : Vec F S512x2048 .f32) (x2 : Vec F S1x512 .f32) (x3 : Vec F S1024x8 .f32) (x4 : Vec F S512x8 .f32) :
    sout0_A_0 c i arg3 harg3 arg4 harg4 arg5 harg5 arg6 harg6 arg7 harg7 arg8 harg8 arg9 harg9 hc0 hc1 x0 x1 x2 x3 x4 = k0_pay2 x0 x1 k0_pay1 := by
  unfold sout0_A_0
  rw [View.read_writes_eq_canon _ _ _ (scover0_A_0 c i arg3 harg3 arg4 harg4 arg5 harg5 arg6 harg6 arg7 harg7 arg8 harg8 arg9 harg9 hc0 hc1 x0 x1 x2 x3 x4)]
  unfold kernelRun0_A
  dsimp only
  sl_unfold_words
  rw [View.canon_cons_unit_zero (S := S1024x512) hz, View.readCov_unit_zero (S := S1024x512) _ hz]
  simp only [View.readAt_eq_ld, harg3.read_unread, harg4.read_unread, harg5.read_unread, harg6.read_unread, harg7.read_unread,
    harg9.read_unread, View.ld_unit_zero (S := S1024x2048) hz, View.ld_unit_zero (S := S512x2048) hz,
    View.ld_unit_zero (S := S1024x512) hz, View.ld_unit_zero (S := S1x512) hz, View.ld_unit_zero (S := S1024x8) hz,
    View.ld_unit_zero (S := S512x8) hz]

end Cert.KernelIdeal.Pieces

end
-- ==== Proof.Payload.lean ====
/-
  The body's three store payloads read at ONE entry `(p, q)` of the [1024, 512] block, on the extended reals, where a
  change of float format is the identity and a matrix product into a zero accumulator is the plain sum over the
  contracted coordinate:

      zero[p, q]                     = 0
      step u v acc [p, q]            = acc[p, q] + ∑ₖ u[p, k] · v[q, k]            (k < 2048: `u · vᵀ`)
      epilogue g a acc bias [p, q]   = (acc[p, q] + bias[0, q]) + ∑ᵣ g[p, r] · a[q, r]   (r < 8)

  The right operand of each product is a transposed block, so its row index is the OUTPUT's column `q`.
-/
import proofs.«115972_j17188459119051_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Payload

open Cert.KernelIdeal Cert.KernelIdeal.Gen Idealize.ShloMosaic Idealize.ShloMosaic.ValueIdx

/-- The left operand's row coordinate at output `i` is the output's row. -/
theorem mm_wide_lhs0 (i : S1024x512.Idx) (k : dot_S1024x2048_S2048x512_S1024x512_1_0_0_1_n_n.contr.Idx) : (dot_S1024x2048_S2048x512_S1024x512_1_0_0_1_n_n.lhsIdx i k 0).val = (i 0).val := by
  unfold DotDims.lhsIdx
  rw [dif_neg (show ¬(0 : Fin S1024x2048.rank) ∈ dot_S1024x2048_S2048x512_S1024x512_1_0_0_1_n_n.lhsBatch by decide),
    dif_pos (show (0 : Fin S1024x2048.rank) ∈ dot_S1024x2048_S2048x512_S1024x512_1_0_0_1_n_n.lhsNonContracting by decide)]
  rfl
/-- The right operand's column coordinate at output `i` is the output's column. -/
theorem mm_wide_rhs1 (i : S1024x512.Idx) (k : dot_S1024x2048_S2048x512_S1024x512_1_0_0_1_n_n.contr.Idx) : (dot_S1024x2048_S2048x512_S1024x512_1_0_0_1_n_n.rhsIdx i k 1).val = (i 1).val := by
  unfold DotDims.rhsIdx
  rw [dif_neg (show ¬(1 : Fin S2048x512.rank) ∈ dot_S1024x2048_S2048x512_S1024x512_1_0_0_1_n_n.rhsBatch by decide),
    dif_pos (show (1 : Fin S2048x512.rank) ∈ dot_S1024x2048_S2048x512_S1024x512_1_0_0_1_n_n.rhsNonContracting by decide)]
  rfl

/-- Entry `(p, q)` of `u · vᵀ` into zero, `u` [1024, 2048], `v` [512, 2048]: the sum over the 2048 contracted coordinates. -/
theorem mm_wide_apply (u : FVec Ideal S1024x2048 .bf16) (v : FVec Ideal S512x2048 .bf16) (p : Fin 1024) (q : Fin 512) :
    FloatOps.matmul dot_S1024x2048_S2048x512_S1024x512_1_0_0_1_n_n none u (transpose S2048x512 [1, 0] v transposes_S512x2048_p1_0_S2048x512) (constant S1024x512 .f32 0x00000000#32) (ix2 p q)
      = ∑ k : Fin 2048, u (ix2 p k) * v (ix2 q k) := by
  rw [Ideal.matmul_constant_zero_apply, ← Equiv.sum_comp (contrEquiv1 dot_S1024x2048_S2048x512_S1024x512_1_0_0_1_n_n 2048 rfl rfl).symm]
  refine Finset.sum_congr rfl fun k _ => ?_
  have hk := contrEquiv1_symm_val dot_S1024x2048_S2048x512_S1024x512_1_0_0_1_n_n 2048 rfl rfl k
  have el : dot_S1024x2048_S2048x512_S1024x512_1_0_0_1_n_n.lhsIdx (ix2 p q) ((contrEquiv1 dot_S1024x2048_S2048x512_S1024x512_1_0_0_1_n_n 2048 rfl rfl).symm k) = ix2 p k :=
    funext fun a => Fin.ext (by
      match a with
      | ⟨0, _⟩ => exact mm_wide_lhs0 _ _
      | ⟨1, _⟩ => exact (dot_S1024x2048_S2048x512_S1024x512_1_0_0_1_n_n.lhsIdx_val_of_single rfl _ _).trans hk)
  rw [el, transpose_apply [1, 0] v transposes_S512x2048_p1_0_S2048x512 _ (ix2 q k) (fun b => by
    match b with
    | ⟨0, _⟩ => show k.val = _; exact ((dot_S1024x2048_S2048x512_S1024x512_1_0_0_1_n_n.rhsIdx_val_of_single rfl _ _).trans hk).symm
    | ⟨1, _⟩ => show q.val = _; exact (mm_wide_rhs1 (ix2 p q) _).symm)]

/-- The left operand's row coordinate at output `i` is the output's row. -/
theorem mm_thin_lhs0 (i : S1024x512.Idx) (k : dot_S1024x8_S8x512_S1024x512_1_0_0_1_n_n.contr.Idx) : (dot_S1024x8_S8x512_S1024x512_1_0_0_1_n_n.lhsIdx i k 0).val = (i 0).val := by
  unfold DotDims.lhsIdx
  rw [dif_neg (show ¬(0 : Fin S1024x8.rank) ∈ dot_S1024x8_S8x512_S1024x512_1_0_0_1_n_n.lhsBatch by decide),
    dif_pos (show (0 : Fin S1024x8.rank) ∈ dot_S1024x8_S8x512_S1024x512_1_0_0_1_n_n.lhsNonContracting by decide)]
  rfl
/-- The right operand's column coordinate at output `i` is the output's column. -/
theorem mm_thin_rhs1 (i : S1024x512.Idx) (k : dot_S1024x8_S8x512_S1024x512_1_0_0_1_n_n.contr.Idx) : (dot_S1024x8_S8x512_S1024x512_1_0_0_1_n_n.rhsIdx i k 1).val = (i 1).val := by
  unfold DotDims.rhsIdx
  rw [dif_neg (show ¬(1 : Fin S8x512.rank) ∈ dot_S1024x8_S8x512_S1024x512_1_0_0_1_n_n.rhsBatch by decide),
    dif_pos (show (1 : Fin S8x512.rank) ∈ dot_S1024x8_S8x512_S1024x512_1_0_0_1_n_n.rhsNonContracting by decide)]
  rfl

/-- Entry `(p, q)` of `g · aᵀ` into zero, `g` [1024, 8], `a` [512, 8]: the sum over the 8 contracted coordinates. -/
theorem mm_thin_apply (u : FVec Ideal S1024x8 .bf16) (v : FVec Ideal S512x8 .bf16) (p : Fin 1024) (q : Fin 512) :
    FloatOps.matmul dot_S1024x8_S8x512_S1024x512_1_0_0_1_n_n none u (transpose S8x512 [1, 0] v transposes_S512x8_p1_0_S8x512) (constant S1024x512 .f32 0x00000000#32) (ix2 p q)
      = ∑ k : Fin 8, u (ix2 p k) * v (ix2 q k) := by
  rw [Ideal.matmul_constant_zero_apply, ← Equiv.sum_comp (contrEquiv1 dot_S1024x8_S8x512_S1024x512_1_0_0_1_n_n 8 rfl rfl).symm]
  refine Finset.sum_congr rfl fun k _ => ?_
  have hk := contrEquiv1_symm_val dot_S1024x8_S8x512_S1024x512_1_0_0_1_n_n 8 rfl rfl k
  have el : dot_S1024x8_S8x512_S1024x512_1_0_0_1_n_n.lhsIdx (ix2 p q) ((contrEquiv1 dot_S1024x8_S8x512_S1024x512_1_0_0_1_n_n 8 rfl rfl).symm k) = ix2 p k :=
    funext fun a => Fin.ext (by
      match a with
      | ⟨0, _⟩ => exact mm_thin_lhs0 _ _
      | ⟨1, _⟩ => exact (dot_S1024x8_S8x512_S1024x512_1_0_0_1_n_n.lhsIdx_val_of_single rfl _ _).trans hk)
  rw [el, transpose_apply [1, 0] v transposes_S512x8_p1_0_S8x512 _ (ix2 q k) (fun b => by
    match b with
    | ⟨0, _⟩ => show k.val = _; exact ((dot_S1024x8_S8x512_S1024x512_1_0_0_1_n_n.rhsIdx_val_of_single rfl _ _).trans hk).symm
    | ⟨1, _⟩ => show q.val = _; exact (mm_thin_rhs1 (ix2 p q) _).symm)]

/-- The zero block. -/
theorem zero_apply (p : Fin 1024) (q : Fin 512) : k0_pay1 (F := Ideal) (ix2 p q) = 0 := by
  unfold k0_pay1
  simp only [shapeCast_self]
  exact Ideal.ofBits_zero_f32

/-- One accumulation step. -/
theorem step_apply (u : Vec Ideal S1024x2048 .f32) (v : Vec Ideal S512x2048 .f32) (acc : Vec Ideal S1024x512 .f32)
    (p : Fin 1024) (q : Fin 512) :
    k0_pay2 (F := Ideal) u v acc (ix2 p q) = acc (ix2 p q) + ∑ k : Fin 2048, u (ix2 p k) * v (ix2 q k) := by
  unfold k0_pay2
  simp only [shapeCast_self]
  show acc (ix2 p q) + FloatOps.matmul (F := Ideal) dot_S1024x2048_S2048x512_S1024x512_1_0_0_1_n_n none _ _ _ (ix2 p q) = _
  rw [mm_wide_apply]
  rfl

/-- The epilogue. -/
theorem epilogue_apply (g : Vec Ideal S1024x8 .f32) (a : Vec Ideal S512x8 .f32) (acc : Vec Ideal S1024x512 .f32)
    (bias : Vec Ideal S1x512 .f32) (p : Fin 1024) (q : Fin 512) :
    k0_pay3 (F := Ideal) g a acc bias (ix2 p q)
      = (acc (ix2 p q) + bias (ix2 (0 : Fin 1) q)) + ∑ r : Fin 8, g (ix2 p r) * a (ix2 q r) := by
  unfold k0_pay3
  simp only [shapeCast_self]
  show (acc (ix2 p q) + broadcastTo S1024x512 bias broadcasts_S1x512_S1024x512 (ix2 p q))
      + FloatOps.matmul (F := Ideal) dot_S1024x8_S8x512_S1024x512_1_0_0_1_n_n none _ _ _ (ix2 p q) = _
  rw [mm_thin_apply, broadcastTo_apply bias broadcasts_S1x512_S1024x512 (ix2 p q) (ix2 (0 : Fin 1) q) (fun a => by
    match a with
    | ⟨0, _⟩ => rfl
    | ⟨1, _⟩ => rfl)]
  rfl

end Cert.KernelIdeal.Payload

end
-- ==== Proof.Blocks.lean ====
/-
  Which entries of the arrays each window's block holds. The grid is 8 × 8 × 2: point `t` is (row tile `t / 16`, column
  tile `t / 2 % 8`, contraction step `t % 2`). At point `t`

    * the block of `x` is rows `1024·(t/16) …`, columns `2048·(t%2) …` of `x`;
    * the block of `W` is rows `512·(t/2%8) …`, columns `2048·(t%2) …` of `W`;
    * the bias block is columns `512·(t/2%8) …` of the bias laid out as one row;
    * the block of `x·B` (scaled) is rows `1024·(t/16) …` of that [8192, 8] array, all 8 columns;
    * the block of `A` is rows `512·(t/2%8) …` of `A`, all 8 columns;

  an entry `y` of a block being the array's entry at (tile index × tile extent + `y`'s coordinate) on each axis. Two of the
  arrays are not arguments but written by the operations before the call: the bias as a [1, 4096] row (a reshape), and
  `1.0 · (x·B)`, whose entry `(t, r)` is `1.0 · ∑ₙ x[t, n] · B[n, r]`.
-/
import proofs.«115972_j17188459119051_2_alg».proof.Proof.Gen.KernelIdeal.Frame
import Idealize.ShloMosaic.Lib.Pipeline.Value
import Idealize.ShloMosaic.Lib.ValueIdx
import Idealize.ShloMosaic.Lib.StableHlo.Run
import Idealize.ShloMosaic.PureOps.Ideal.Laws

noncomputable section

namespace Cert.KernelIdeal.Blocks

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ)

/-- The five arguments as launched, on core `c`, at their literal shapes. -/
abbrev argX (c : Dev nD) : FVec Ideal S8192x4096 .f32 := m ((c : Thread nD τ).loc main_arg0)
abbrev argW (c : Dev nD) : FVec Ideal S4096x4096 .f32 := m ((c : Thread nD τ).loc main_arg1)
abbrev argBias (c : Dev nD) : FVec Ideal S4096 .f32 := m ((c : Thread nD τ).loc main_arg2)
abbrev argA (c : Dev nD) : FVec Ideal S4096x8 .f32 := m ((c : Thread nD τ).loc main_arg3)
abbrev argB (c : Dev nD) : FVec Ideal S4096x8 .f32 := m ((c : Thread nD τ).loc main_arg4)

/-- The six windows' tile indices at point `t`, decided once over the 128 points. -/
theorem idx_facts : ∀ t : Fin cfg0.N,
    win0_0.index t (0 : Fin 2) = t.val / 16 ∧ win0_0.index t (1 : Fin 2) = t.val % 2
    ∧ win0_1.index t (0 : Fin 2) = t.val / 2 % 8 ∧ win0_1.index t (1 : Fin 2) = t.val % 2
    ∧ win0_2.index t (0 : Fin 2) = 0 ∧ win0_2.index t (1 : Fin 2) = t.val / 2 % 8
    ∧ win0_3.index t (0 : Fin 2) = t.val / 16 ∧ win0_3.index t (1 : Fin 2) = 0
    ∧ win0_4.index t (0 : Fin 2) = t.val / 2 % 8 ∧ win0_4.index t (1 : Fin 2) = 0
    ∧ win0_5.index t (0 : Fin 2) = t.val / 16 ∧ win0_5.index t (1 : Fin 2) = t.val / 2 % 8 :=
  (by decide +kernel : ∀ t : Fin grid0.N, _)

/-- The block of `x`. -/
theorem x_blk (c : Dev nD) (t : Fin cfg0.N) (y : S1024x2048.Idx) (I : S8192x4096.Idx)
    (h0 : (I 0).val = 1024 * (t.val / 16) + (y 0).val) (h1 : (I 1).val = 2048 * (t.val % 2) + (y 1).val) :
    iblk m c 0 t y = V m c main_arg0 I := by
  obtain ⟨e00, e01, e10, e11, e20, e21, e30, e31, e40, e41, e50, e51⟩ := idx_facts t
  unfold iblk
  rw [View.read_apply]
  show V m c main_arg0 (((cfg0.win 0).blk t).view.emb y) = V m c main_arg0 I
  refine congrArg _ (funext fun a => Fin.ext ?_)
  match a with
  | ⟨0, _⟩ => show win0_0.index t (0 : Fin 2) * 1024 + 1 * (y 0).val = (I 0).val; omega
  | ⟨1, _⟩ => show win0_0.index t (1 : Fin 2) * 2048 + 1 * (y 1).val = (I 1).val; omega

/-- The block of `W`. -/
theorem w_blk (c : Dev nD) (t : Fin cfg0.N) (y : S512x2048.Idx) (I : S4096x4096.Idx)
    (h0 : (I 0).val = 512 * (t.val / 2 % 8) + (y 0).val) (h1 : (I 1).val = 2048 * (t.val % 2) + (y 1).val) :
    iblk m c 1 t y = V m c main_arg1 I := by
  obtain ⟨e00, e01, e10, e11, e20, e21, e30, e31, e40, e41, e50, e51⟩ := idx_facts t
  unfold iblk
  rw [View.read_apply]
  show V m c main_arg1 (((cfg0.win 1).blk t).view.emb y) = V m c main_arg1 I
  refine congrArg _ (funext fun a => Fin.ext ?_)
  match a with
  | ⟨0, _⟩ => show win0_1.index t (0 : Fin 2) * 512 + 1 * (y 0).val = (I 0).val; omega
  | ⟨1, _⟩ => show win0_1.index t (1 : Fin 2) * 2048 + 1 * (y 1).val = (I 1).val; omega

/-- The bias block. -/
theorem bias_blk (c : Dev nD) (t : Fin cfg0.N) (y : S1x512.Idx) (I : S1x4096.Idx)
    (h0 : (I 0).val = 0 + (y 0).val) (h1 : (I 1).val = 512 * (t.val / 2 % 8) + (y 1).val) :
    iblk m c 2 t y = V m c main_v3 I := by
  obtain ⟨e00, e01, e10, e11, e20, e21, e30, e31, e40, e41, e50, e51⟩ := idx_facts t
  unfold iblk
  rw [View.read_apply]
  show V m c main_v3 (((cfg0.win 2).blk t).view.emb y) = V m c main_v3 I
  refine congrArg _ (funext fun a => Fin.ext ?_)
  match a with
  | ⟨0, _⟩ => show win0_2.index t (0 : Fin 2) * 1 + 1 * (y 0).val = (I 0).val; omega
  | ⟨1, _⟩ => show win0_2.index t (1 : Fin 2) * 512 + 1 * (y 1).val = (I 1).val; omega

/-- The block of the scaled `x·B`. -/
theorem xb_blk (c : Dev nD) (t : Fin cfg0.N) (y : S1024x8.Idx) (I : S8192x8.Idx)
    (h0 : (I 0).val = 1024 * (t.val / 16) + (y 0).val) (h1 : (I 1).val = 0 + (y 1).val) :
    iblk m c 3 t y = V m c main_v2 I := by
  obtain ⟨e00, e01, e10, e11, e20, e21, e30, e31, e40, e41, e50, e51⟩ := idx_facts t
  unfold iblk
  rw [View.read_apply]
  show V m c main_v2 (((cfg0.win 3).blk t).view.emb y) = V m c main_v2 I
  refine congrArg _ (funext fun a => Fin.ext ?_)
  match a with
  | ⟨0, _⟩ => show win0_3.index t (0 : Fin 2) * 1024 + 1 * (y 0).val = (I 0).val; omega
  | ⟨1, _⟩ => show win0_3.index t (1 : Fin 2) * 8 + 1 * (y 1).val = (I 1).val; omega

/-- The block of `A`. -/
theorem a_blk (c : Dev nD) (t : Fin cfg0.N) (y : S512x8.Idx) (I : S4096x8.Idx)
    (h0 : (I 0).val = 512 * (t.val / 2 % 8) + (y 0).val) (h1 : (I 1).val = 0 + (y 1).val) :
    iblk m c 4 t y = V m c main_arg3 I := by
  obtain ⟨e00, e01, e10, e11, e20, e21, e30, e31, e40, e41, e50, e51⟩ := idx_facts t
  unfold iblk
  rw [View.read_apply]
  show V m c main_arg3 (((cfg0.win 4).blk t).view.emb y) = V m c main_arg3 I
  refine congrArg _ (funext fun a => Fin.ext ?_)
  match a with
  | ⟨0, _⟩ => show win0_4.index t (0 : Fin 2) * 512 + 1 * (y 0).val = (I 0).val; omega
  | ⟨1, _⟩ => show win0_4.index t (1 : Fin 2) * 8 + 1 * (y 1).val = (I 1).val; omega

/-! ## The two arrays the operations before the call write -/

/-- The left operand's row coordinate of `x·B` at output `i` is the output's row. -/
theorem xB_lhs0 (i : S8192x8.Idx) (k : dot_S8192x4096_S4096x8_S8192x8_1_0_0_1_n_n.contr.Idx) : (dot_S8192x4096_S4096x8_S8192x8_1_0_0_1_n_n.lhsIdx i k 0).val = (i 0).val := by
  unfold DotDims.lhsIdx
  rw [dif_neg (show ¬(0 : Fin S8192x4096.rank) ∈ dot_S8192x4096_S4096x8_S8192x8_1_0_0_1_n_n.lhsBatch by decide),
    dif_pos (show (0 : Fin S8192x4096.rank) ∈ dot_S8192x4096_S4096x8_S8192x8_1_0_0_1_n_n.lhsNonContracting by decide)]
  rfl
/-- The right operand's column coordinate of `x·B` at output `i` is the output's column. -/
theorem xB_rhs1 (i : S8192x8.Idx) (k : dot_S8192x4096_S4096x8_S8192x8_1_0_0_1_n_n.contr.Idx) : (dot_S8192x4096_S4096x8_S8192x8_1_0_0_1_n_n.rhsIdx i k 1).val = (i 1).val := by
  unfold DotDims.rhsIdx
  rw [dif_neg (show ¬(1 : Fin S4096x8.rank) ∈ dot_S8192x4096_S4096x8_S8192x8_1_0_0_1_n_n.rhsBatch by decide),
    dif_pos (show (1 : Fin S4096x8.rank) ∈ dot_S8192x4096_S4096x8_S8192x8_1_0_0_1_n_n.rhsNonContracting by decide)]
  rfl

/-- Entry `(t, r)` of `x·B`: the sum over the 4096 contracted coordinates. -/
theorem xB_apply (x : FVec Ideal S8192x4096 .f32) (B : FVec Ideal S4096x8 .f32) (t : Fin 8192) (r : Fin 8) :
    Host.dotGeneral (F := Ideal) dot_S8192x4096_S4096x8_S8192x8_1_0_0_1_n_n none x B (ix2 t r) = ∑ n : Fin 4096, x (ix2 t n) * B (ix2 n r) := by
  simp only [Host.dotGeneral]
  rw [Ideal.dotGeneral_apply, ← Equiv.sum_comp (contrEquiv1 dot_S8192x4096_S4096x8_S8192x8_1_0_0_1_n_n 4096 rfl rfl).symm]
  refine Finset.sum_congr rfl fun k _ => ?_
  have hk := contrEquiv1_symm_val dot_S8192x4096_S4096x8_S8192x8_1_0_0_1_n_n 4096 rfl rfl k
  have el : dot_S8192x4096_S4096x8_S8192x8_1_0_0_1_n_n.lhsIdx (ix2 t r) ((contrEquiv1 dot_S8192x4096_S4096x8_S8192x8_1_0_0_1_n_n 4096 rfl rfl).symm k) = ix2 t k :=
    funext fun a => Fin.ext (by
      match a with
      | ⟨0, _⟩ => exact xB_lhs0 _ _
      | ⟨1, _⟩ => exact (dot_S8192x4096_S4096x8_S8192x8_1_0_0_1_n_n.lhsIdx_val_of_single rfl _ _).trans hk)
  have er : dot_S8192x4096_S4096x8_S8192x8_1_0_0_1_n_n.rhsIdx (ix2 t r) ((contrEquiv1 dot_S8192x4096_S4096x8_S8192x8_1_0_0_1_n_n 4096 rfl rfl).symm k) = ix2 k r :=
    funext fun a => Fin.ext (by
      match a with
      | ⟨0, _⟩ => exact (dot_S8192x4096_S4096x8_S8192x8_1_0_0_1_n_n.rhsIdx_val_of_single rfl _ _).trans hk
      | ⟨1, _⟩ => exact xB_rhs1 _ _)
  rw [el, er]

/-- The staged low-rank array is `1.0 · (x·B)`, of the arguments as launched. -/
theorem V_xb (c : Dev nD) : (V m c main_v2 : S8192x8.Idx → EReal)
    = mulf (broadcastInDim S8192x8 ![] bcast_S_S8192x8 (constant (F := Ideal) S_ .f32 0x3F800000#32))
        (Host.dotGeneral (F := Ideal) dot_S8192x4096_S4096x8_S8192x8_1_0_0_1_n_n none (argX m c) (argB m c)) := by
  dsimp only [V, hostOps0]; after_results <;> rfl

/-- … so its entry `(t, r)` is `1.0 · ∑ₙ x[t, n] · B[n, r]`. -/
theorem V_xb_apply (c : Dev nD) (t : Fin 8192) (r : Fin 8) :
    (V m c main_v2 : S8192x8.Idx → EReal) (ix2 t r)
      = Ideal.ofBits .f32 0x3F800000#32 * ∑ n : Fin 4096, argX m c (ix2 t n) * argB m c (ix2 n r) := by
  rw [V_xb, mulf_apply, xB_apply]
  rfl

/-- The staged bias is the bias reshaped to one row, of the argument as launched. -/
theorem V_bias (c : Dev nD) : (V m c main_v3 : S1x4096.Idx → EReal)
    = shapeCast S1x4096 (argBias m c) shapeCasts_S4096_S1x4096 := by
  dsimp only [V, hostOps0]; after_results <;> rfl

/-- … so its entry `(0, o)` is `b[o]`. -/
theorem V_bias_apply (c : Dev nD) (o : Fin 4096) :
    (V m c main_v3 : S1x4096.Idx → EReal) (ix2 (0 : Fin 1) o)
      = argBias m c (ix1 o) := by
  rw [V_bias]
  exact shapeCast_apply _ shapeCasts_S4096_S1x4096 (ix2 (0 : Fin 1) o) (ix1 o) (by
    rw [Shape.rowMajor_val_one, Shape.rowMajor_val_two]
    show o.val = 0 * 4096 + o.val
    omega)

end Cert.KernelIdeal.Blocks

end
-- ==== Proof.LibERealSum.lean ====
/-
  Finite sums of real numbers inside the extended reals.

  `coe_sum`: the coercion `ℝ → EReal` commutes with a finite sum (Mathlib states it for `+` and for `*`, not for `∑`).
  `lowrank_swap`: for real `s`, `u : ι → ℝ`, `B : ι → κ → ℝ`, `a : κ → ℝ` over finite index types,

      ∑ᵣ (s · ∑ₙ uₙ · Bₙᵣ) · aᵣ  =  ∑ₙ uₙ · (s · ∑ᵣ aᵣ · Bₙᵣ)        (as extended reals)

  — a vector pushed through a rank-κ factorization from either end. It is an identity of REAL numbers (distributivity and an
  exchange of two finite sums); on the extended reals it fails at the infinities, which is why it is stated over
  coercions.
-/
import Mathlib.Data.EReal.Operations
import Mathlib.Algebra.BigOperators.Ring.Finset
import Mathlib.Algebra.BigOperators.Group.Finset.Sigma
import Mathlib.Tactic.Ring

namespace Cert.Lib.ERealSum

/-- The coercion of a finite real sum is the sum of the coercions. -/
theorem coe_sum {ι : Type*} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- `∑ᵣ (s · ∑ₙ uₙ·Bₙᵣ) · aᵣ = ∑ₙ uₙ · (s · ∑ᵣ aᵣ·Bₙᵣ)` on real numbers, read in the extended reals: both are
    `s · ∑ₙ ∑ᵣ uₙ·Bₙᵣ·aᵣ`, by distributivity and the exchange of the two finite sums. -/
theorem lowrank_swap {ι κ : Type*} [Fintype ι] [Fintype κ] (s : ℝ) (u : ι → ℝ) (Bm : ι → κ → ℝ) (a : κ → ℝ) :
    ∑ r, ((s : EReal) * ∑ n, (u n : EReal) * (Bm n r : EReal)) * (a r : EReal)
      = ∑ n, (u n : EReal) * ((s : EReal) * ∑ r, (a r : EReal) * (Bm n r : EReal)) := by
  simp only [← EReal.coe_mul, ← coe_sum]
  refine congrArg _ ?_
  simp only [Finset.mul_sum, Finset.sum_mul]
  rw [Finset.sum_comm]
  exact Finset.sum_congr rfl fun n _ => Finset.sum_congr rfl fun r _ => by ring

end Cert.Lib.ERealSum
-- ==== Proof.Spec.lean ====
/-
  The result of both programs as ONE function of the five argument arrays, index by index, on the extended reals:

      out[t, o] = (∑ₙ x[t, n] · W[o, n] + b[o]) + ∑ₙ x[t, n] · (s · ∑ᵣ A[o, r] · B[n, r])

  (`lora`; `s` is the scale both programs multiply the low-rank factor by). That is the order in which the dense
  reference computes it: the rank-8 update `s · A·Bᵀ` of the weight is formed first and applied to `x` second. The tiled
  program instead accumulates the first sum in two halves of the contraction axis into a zero block, adds the bias, and
  adds the low-rank term the other way round, `∑ᵣ (s · ∑ₙ x[t, n] · B[n, r]) · A[o, r]` (`tiled`). The two agree:
  the halves by associativity and commutativity of `+` alone (`sum_halves`), the low-rank terms by distributivity and
  an exchange of the two sums (`Lib.ERealSum.lowrank_swap`) — which holds on the reals and FAILS at the infinities, so it is used only
  where `x`, `A`, `B` and the scale are real numbers (`tiled_eq_lora`).
-/
import Idealize.ShloMosaic.PureOps.Ideal
import Idealize.ShloMosaic.Lib.ValueIdx
import proofs.«115972_j17188459119051_2_alg».proof.Proof.LibERealSum

noncomputable section

namespace Cert.Spec

open Idealize.ShloMosaic Idealize.ShloMosaic.ValueIdx

/-- tokens × features: `x` [8192, 4096] and the result [8192, 4096] -/
abbrev Sx : Shape := ⟨2, ![8192, 4096]⟩
/-- the weight [out, in] = [4096, 4096] -/
abbrev SW : Shape := ⟨2, ![4096, 4096]⟩
/-- the bias [4096] -/
abbrev Sb : Shape := ⟨1, ![4096]⟩
/-- a low-rank factor [4096, 8] -/
abbrev Sr : Shape := ⟨2, ![4096, 8]⟩

/-- The result, in the reference's order. -/
def lora (s : EReal) (x : Sx.Idx → EReal) (W : SW.Idx → EReal) (b : Sb.Idx → EReal) (A B : Sr.Idx → EReal) : Sx.Idx → EReal :=
  fun i => ((∑ n : Fin 4096, x (ix2 (i 0) n) * W (ix2 (i 1) n)) + b (ix1 (i 1)))
    + ∑ n : Fin 4096, x (ix2 (i 0) n) * (s * ∑ r : Fin 8, A (ix2 (i 1) r) * B (ix2 n r))

/-- One entry (row `t`, column `o`) in the tiled program's order: the contraction in its lower half (`lo`) into zero, then
    its upper half (`hi`), the bias, and the low-rank term with `x·B` formed first. -/
def tiled (s : EReal) (x : Sx.Idx → EReal) (W : SW.Idx → EReal) (b : Sb.Idx → EReal) (A B : Sr.Idx → EReal)
    (lo hi : Fin 2048 → Fin 4096) (t : Fin 8192) (o : Fin 4096) : EReal :=
  (((0 + ∑ j : Fin 2048, x (ix2 t (lo j)) * W (ix2 o (lo j))) + ∑ j : Fin 2048, x (ix2 t (hi j)) * W (ix2 o (hi j)))
      + b (ix1 o))
    + ∑ r : Fin 8, (s * ∑ n : Fin 4096, x (ix2 t n) * B (ix2 n r)) * A (ix2 o r)

/-- A sum over `Fin 4096` is the sum over its lower half, started from zero, plus the sum over its upper half — in any
    commutative monoid, so on the extended reals with no finiteness asked. -/
theorem sum_halves {M : Type*} [AddCommMonoid M] (f : Fin 4096 → M) (lo hi : Fin 2048 → Fin 4096)
    (hlo : ∀ j, (lo j).val = j.val) (hhi : ∀ j, (hi j).val = 2048 + j.val) :
    (0 + ∑ j : Fin 2048, f (lo j)) + ∑ j : Fin 2048, f (hi j) = ∑ n : Fin 4096, f n := by
  rw [zero_add]
  have e1 : lo = Fin.castAdd 2048 := funext fun j => Fin.ext (hlo j)
  have e2 : hi = Fin.natAdd 2048 := funext fun j => Fin.ext (hhi j)
  rw [e1, e2]
  exact (Fin.sum_univ_add (a := 2048) (b := 2048) f).symm

/-- The tiled program's entry is the reference's, where `x`, `A`, `B` and the scale are real numbers (`W` and `b` may be
    anything: they only meet `+` and one product each, in the same order on both sides). -/
theorem tiled_eq_lora (s : EReal) (x : Sx.Idx → EReal) (W : SW.Idx → EReal) (b : Sb.Idx → EReal) (A B : Sr.Idx → EReal)
    (lo hi : Fin 2048 → Fin 4096) (hlo : ∀ j, (lo j).val = j.val) (hhi : ∀ j, (hi j).val = 2048 + j.val)
    (hs : ∃ r : ℝ, s = (r : EReal)) (hx : ∀ i, ∃ r : ℝ, x i = (r : EReal)) (hA : ∀ i, ∃ r : ℝ, A i = (r : EReal))
    (hB : ∀ i, ∃ r : ℝ, B i = (r : EReal)) (t : Fin 8192) (o : Fin 4096) :
    tiled s x W b A B lo hi t o = lora s x W b A B (ix2 t o) := by
  obtain ⟨s', rfl⟩ := hs
  choose x' hx' using hx
  choose A' hA' using hA
  choose B' hB' using hB
  unfold tiled lora
  rw [sum_halves (fun n => x (ix2 t n) * W (ix2 o n)) lo hi hlo hhi]
  congr 1
  simp only [hx', hA', hB']
  exact Cert.Lib.ERealSum.lowrank_swap s' (fun n => x' (ix2 t n)) (fun n r => B' (ix2 n r)) (fun r => A' (ix2 o r))

end Cert.Spec

end
-- ==== Proof.Tiled.lean ====
/-
  The tiled program's result array. Only the second contraction step of each (row tile, column tile) writes its output
  block back. What it writes at entry `(p, q)` of the block is, by the body's payloads over the blocks of the two steps,

      (((0 + ∑ₖ x[T, k]·W[O, k]) + ∑ₖ x[T, 2048+k]·W[O, 2048+k]) + b[O]) + ∑ᵣ (1.0·∑ₙ x[T, n]·B[n, r]) · A[O, r]

  with `T = 1024·(row tile) + p` and `O = 512·(column tile) + q` the entry's place in the array (`written_apply`): that is
  `Spec.tiled`, hence `Spec.lora` at `(T, O)` where `x`, `A`, `B` are real (`written_eq`). The 64 written blocks tile the
  [8192, 4096] array (`cover`: entry `(i₀, i₁)` lies in the block of row tile `i₀ / 1024`, column tile `i₁ / 512`), so the
  array ends holding `Spec.lora` of the arguments (`final`, `run`).
-/
import proofs.«115972_j17188459119051_2_alg».proof.Proof.Gen.KernelIdeal.Value
import proofs.«115972_j17188459119051_2_alg».proof.Proof.Pieces
import proofs.«115972_j17188459119051_2_alg».proof.Proof.Payload
import proofs.«115972_j17188459119051_2_alg».proof.Proof.Blocks
import proofs.«115972_j17188459119051_2_alg».proof.Proof.Spec

noncomputable section

namespace Cert.KernelIdeal.Tiled

open Cert.KernelIdeal Cert.KernelIdeal.Gen Idealize.ShloMosaic Idealize.ShloMosaic.TcCoe Idealize.SL.Sem
open Idealize.ShloMosaic.ValueIdx
open Idealize.ShloMosaic.Pipeline (Dat)
open Cert.KernelIdeal.Blocks (argX argW argBias argA argB)

variable (m : (ℓ : Loc nD τ sig) → Buf (Elt Ideal) ℓ) (ρ : Dev nD → PrngReg)

/-- the scale, as the program spells it: the f32 pattern of 1.0 -/
abbrev scale : EReal := Ideal.ofBits .f32 0x3F800000#32

/-- the lower and the upper half of the contraction axis -/
def lo (j : Fin 2048) : Fin 4096 := ⟨j.val, by have := j.isLt; omega⟩
def hi (j : Fin 2048) : Fin 4096 := ⟨2048 + j.val, by have := j.isLt; omega⟩

theorem lo_val (j : Fin 2048) : (lo j).val = j.val := rfl
theorem hi_val (j : Fin 2048) : (hi j).val = 2048 + j.val := rfl

/-- the array row of block row `p`, and the array column of block column `q`, at grid point `t` -/
def rowOf (t : Fin cfg0.N) (p : Fin 1024) : Fin 8192 :=
  ⟨1024 * (t.val / 16) + p.val, by
    have hN : t.val < 128 := lt_of_lt_of_eq t.isLt (show cfg0.N = 128 from N_0)
    have := p.isLt; omega⟩
def colOf (t : Fin cfg0.N) (q : Fin 512) : Fin 4096 :=
  ⟨512 * (t.val / 2 % 8) + q.val, by have := q.isLt; omega⟩

/-- The result array's contents: `Spec.lora` of the arguments as launched. -/
abbrev result (c : Dev nD) : Buf (Elt Ideal) ((c : Thread nD τ).loc main_v4) :=
  Cert.Spec.lora scale (argX m c) (argW m c) (argBias m c) (argA m c) (argB m c)

/-- The contents after a point depend on the point's number only. -/
theorem outsAt_congr (c : Dev nD) {n n' : ℕ} (e : n = n') (h : n < cfg0.N) (h' : n' < cfg0.N) :
    outsAt0 m c n h = outsAt0 m c n' h' := by
  subst e; rfl

/-- WHAT A SECOND-STEP POINT `t` WRITES, at entry `(p, q)` of its block: the tiled program's formula at the entry's place
    in the array (`t'` is the point before it, the first step of the same tile). -/
theorem written_apply (c : Dev nD) (t t' : Fin cfg0.N) (ht : t.val % 2 = 1) (ht' : t'.val + 1 = t.val) (p : Fin 1024)
    (q : Fin 512) :
    (dats m 0 c).flushed 5 t (ix2 p q)
      = Cert.Spec.tiled scale (argX m c) (argW m c) (argBias m c) (argA m c) (argB m c) lo hi (rowOf t p) (colOf t q) := by
  have hN : t.val < 128 := lt_of_lt_of_eq t.isLt (show cfg0.N = 128 from N_0)
  have h0 : ¬t.val % 2 = 0 := by omega
  have hlt : t.val - 1 < cfg0.N := Nat.lt_of_le_of_lt (Nat.sub_le _ _) t.isLt
  -- the point before is the first step of the same tile
  have hp0 : t'.val % 2 = 0 := by omega
  have hp1 : ¬t'.val % 2 = 1 := by omega
  -- what it left in the accumulator: zero plus its product
  have eacc : (outsAt0 m c (t.val - 1) hlt).2 = k0_pay2 (iblk m c 0 t') (iblk m c 1 t') (k0_pay1 (F := Ideal)) := by
    rw [outsAt_congr m c (show t.val - 1 = t'.val by omega) hlt t'.isLt, outsAt0_A m c t' hp0 hp1]
    dsimp only
    exact Pieces.acc_first (F := Ideal) c (grid0.coords t') (ms0_0 t') (hs0_0 t') (ms0_1 t') (hs0_1 t') (ms0_2 t') (hs0_2 t') (ms0_3 t') (hs0_3 t')
      (ms0_4 t') (hs0_4 t') (ms0_5 t') (hs0_5 t') scM0_0 (Memref.isWhole_whole _)
      ((hcond0_0 t').mpr hp0) (fun h => hp1 ((hcond0_1 t').mp h))
      (iblk m c 0 t') (iblk m c 1 t') (iblk m c 2 t') (iblk m c 3 t') (iblk m c 4 t')
  -- what this point writes: the epilogue over the accumulator after its own step
  have eout : (dats m 0 c).flushed 5 t
      = (cfg0.win 5).cut (grid0.coords t) (k0_pay3 (iblk m c 3 t) (iblk m c 4 t)
          (k0_pay2 (iblk m c 0 t) (iblk m c 1 t) (k0_pay2 (iblk m c 0 t') (iblk m c 1 t') (k0_pay1 (F := Ideal))))
          (iblk m c 2 t)) := by
    rw [Value.flushed5_B m c t h0 ht]
    refine congrArg ((cfg0.win 5).cut (grid0.coords t)) ?_
    rw [eacc]
    exact Pieces.out_second (F := Ideal) c (grid0.coords t) (ms0_0 t) (hs0_0 t) (ms0_1 t) (hs0_1 t) (ms0_2 t) (hs0_2 t) (ms0_3 t) (hs0_3 t)
      (ms0_4 t) (hs0_4 t) (ms0_5 t) (hs0_5 t) scM0_0 (Memref.isWhole_whole _)
      (fun h => h0 ((hcond0_0 t).mp h)) ((hcond0_1 t).mpr ht)
      (iblk m c 0 t) (iblk m c 1 t) (iblk m c 2 t) (iblk m c 3 t) (iblk m c 4 t)
      (k0_pay2 (iblk m c 0 t') (iblk m c 1 t') (k0_pay1 (F := Ideal)))
  -- the payloads at the entry
  have s3 := Payload.epilogue_apply (iblk m c 3 t) (iblk m c 4 t)
    (k0_pay2 (iblk m c 0 t) (iblk m c 1 t) (k0_pay2 (iblk m c 0 t') (iblk m c 1 t') (k0_pay1 (F := Ideal)))) (iblk m c 2 t) p q
  have s2 := Payload.step_apply (iblk m c 0 t) (iblk m c 1 t) (k0_pay2 (iblk m c 0 t') (iblk m c 1 t') (k0_pay1 (F := Ideal))) p q
  have s1 := Payload.step_apply (iblk m c 0 t') (iblk m c 1 t') (k0_pay1 (F := Ideal)) p q
  have s0 := Payload.zero_apply p q
  -- the blocks' entries, as entries of the arrays
  have bx : ∀ k : Fin 2048, iblk m c 0 t (ix2 p k) = argX m c (ix2 (rowOf t p) (hi k)) := fun k =>
    (Blocks.x_blk m c t (ix2 p k) (ix2 (rowOf t p) (hi k))
      (by show 1024 * (t.val / 16) + p.val = 1024 * (t.val / 16) + p.val; rfl)
      (by show 2048 + k.val = 2048 * (t.val % 2) + k.val; omega)).trans (congrFun (V_main_arg0 m c) _)
  have bw : ∀ k : Fin 2048, iblk m c 1 t (ix2 q k) = argW m c (ix2 (colOf t q) (hi k)) := fun k =>
    (Blocks.w_blk m c t (ix2 q k) (ix2 (colOf t q) (hi k))
      (by show 512 * (t.val / 2 % 8) + q.val = 512 * (t.val / 2 % 8) + q.val; rfl)
      (by show 2048 + k.val = 2048 * (t.val % 2) + k.val; omega)).trans (congrFun (V_main_arg1 m c) _)
  have bx' : ∀ k : Fin 2048, iblk m c 0 t' (ix2 p k) = argX m c (ix2 (rowOf t p) (lo k)) := fun k =>
    (Blocks.x_blk m c t' (ix2 p k) (ix2 (rowOf t p) (lo k))
      (by show 1024 * (t.val / 16) + p.val = 1024 * (t'.val / 16) + p.val; omega)
      (by show k.val = 2048 * (t'.val % 2) + k.val; omega)).trans (congrFun (V_main_arg0 m c) _)
  have bw' : ∀ k : Fin 2048, iblk m c 1 t' (ix2 q k) = argW m c (ix2 (colOf t q) (lo k)) := fun k =>
    (Blocks.w_blk m c t' (ix2 q k) (ix2 (colOf t q) (lo k))
      (by show 512 * (t.val / 2 % 8) + q.val = 512 * (t'.val / 2 % 8) + q.val; omega)
      (by show k.val = 2048 * (t'.val % 2) + k.val; omega)).trans (congrFun (V_main_arg1 m c) _)
  have bb : iblk m c 2 t (ix2 (0 : Fin 1) q) = argBias m c (ix1 (colOf t q)) :=
    (Blocks.bias_blk m c t (ix2 (0 : Fin 1) q) (ix2 (0 : Fin 1) (colOf t q))
      (by show 0 = 0 + 0; rfl)
      (by show 512 * (t.val / 2 % 8) + q.val = 512 * (t.val / 2 % 8) + q.val; rfl)).trans (Blocks.V_bias_apply m c _)
  have bg : ∀ r : Fin 8, iblk m c 3 t (ix2 p r)
      = scale * ∑ n : Fin 4096, argX m c (ix2 (rowOf t p) n) * argB m c (ix2 n r) := fun r =>
    (Blocks.xb_blk m c t (ix2 p r) (ix2 (rowOf t p) r)
      (by show 1024 * (t.val / 16) + p.val = 1024 * (t.val / 16) + p.val; rfl)
      (by show r.val = 0 + r.val; omega)).trans (Blocks.V_xb_apply m c _ r)
  have ba : ∀ r : Fin 8, iblk m c 4 t (ix2 q r) = argA m c (ix2 (colOf t q) r) := fun r =>
    (Blocks.a_blk m c t (ix2 q r) (ix2 (colOf t q) r)
      (by show 512 * (t.val / 2 % 8) + q.val = 512 * (t.val / 2 % 8) + q.val; rfl)
      (by show r.val = 0 + r.val; omega)).trans (congrFun (V_main_arg3 m c) _)
  rw [eout]
  refine s3.trans ?_
  rw [s2, s1, s0]
  simp only [bx, bw, bx', bw', bb, bg, ba]
  rfl

/-- … so the block a second-step point writes is its block of `result`, where `x`, `A`, `B` are real. -/
theorem written_eq (c : Dev nD) (hx : ∀ i, ∃ r : ℝ, argX m c i = (r : EReal)) (hA : ∀ i, ∃ r : ℝ, argA m c i = (r : EReal))
    (hB : ∀ i, ∃ r : ℝ, argB m c i = (r : EReal)) (hs : ∃ r : ℝ, scale = (r : EReal))
    (t : Fin cfg0.N) (hf : (cfg0.win 5).flush t = true) :
    (dats m 0 c).flushed 5 t = ((cfg0.win 5).blk t).view.read (Elt Ideal) (result m c) := by
  have ht : t.val % 2 = 1 := (flush0_5 t).mp hf
  obtain ⟨-, -, -, -, -, -, -, -, -, -, e50, e51⟩ := Blocks.idx_facts t
  funext y
  obtain ⟨p, q, rfl⟩ : ∃ (p : Fin 1024) (q : Fin 512), y = ix2 p q := ⟨y 0, y 1, eq_ix2 y⟩
  have hN : t.val < 128 := lt_of_lt_of_eq t.isLt (show cfg0.N = 128 from N_0)
  rw [written_apply m c t ⟨t.val - 1, Nat.lt_of_le_of_lt (Nat.sub_le _ _) t.isLt⟩ ht (by show t.val - 1 + 1 = t.val; omega) p q,
    Cert.Spec.tiled_eq_lora scale _ _ _ _ _ lo hi lo_val hi_val hs hx hA hB, View.read_apply]
  refine congrArg (result m c) (funext fun a => Fin.ext ?_)
  match a with
  | ⟨0, _⟩ => show 1024 * (t.val / 16) + p.val = win0_5.index t (0 : Fin 2) * 1024 + 1 * p.val; omega
  | ⟨1, _⟩ => show 512 * (t.val / 2 % 8) + q.val = win0_5.index t (1 : Fin 2) * 512 + 1 * q.val; omega

/-- An entry of the array is in point `t`'s block iff each coordinate is in the block's range on its axis. -/
theorem mem_blk (t : Fin cfg0.N) (i : S8192x4096.Idx) :
    i ∈ ((cfg0.win 5).blk t).view.set
      ↔ ∀ a : Fin 2, win0_5.index t a * S1024x512.size a ≤ (i a).val
          ∧ (i a).val < win0_5.index t a * S1024x512.size a + S1024x512.size a := by
  show i ∈ ((View.whole main_v4).slice (win0_5.rect t)).set ↔ _
  rw [View.set_slice_whole, Rect.mem_set_unit]
  exact Iff.rfl

/-- The written blocks tile the array: entry `(i₀, i₁)` is in the block the second step of row tile `i₀ / 1024`, column
    tile `i₁ / 512` writes. -/
theorem cover (i : S8192x4096.Idx) :
    ∃ t : Fin cfg0.N, (cfg0.win 5).flush t = true ∧ i ∈ ((cfg0.win 5).blk t).view.set := by
  have hi0 : (i 0).val < 8192 := (i 0).isLt
  have hi1 : (i 1).val < 4096 := (i 1).isLt
  have hlt : 16 * ((i 0).val / 1024) + 2 * ((i 1).val / 512) + 1 < cfg0.N := by
    rw [show cfg0.N = 128 from N_0]; omega
  obtain ⟨-, -, -, -, -, -, -, -, -, -, e50, e51⟩ :=
    Blocks.idx_facts ⟨16 * ((i 0).val / 1024) + 2 * ((i 1).val / 512) + 1, hlt⟩
  refine ⟨⟨16 * ((i 0).val / 1024) + 2 * ((i 1).val / 512) + 1, hlt⟩,
    (flush0_5 _).mpr (by show (16 * ((i 0).val / 1024) + 2 * ((i 1).val / 512) + 1) % 2 = 1; omega), ?_⟩
  rw [mem_blk]
  intro a
  match a with
  | ⟨0, _⟩ =>
    show win0_5.index _ (0 : Fin 2) * 1024 ≤ (i 0).val ∧ (i 0).val < win0_5.index _ (0 : Fin 2) * 1024 + 1024
    rw [e50]
    show (16 * ((i 0).val / 1024) + 2 * ((i 1).val / 512) + 1) / 16 * 1024 ≤ (i 0).val
      ∧ (i 0).val < (16 * ((i 0).val / 1024) + 2 * ((i 1).val / 512) + 1) / 16 * 1024 + 1024
    omega
  | ⟨1, _⟩ =>
    show win0_5.index _ (1 : Fin 2) * 512 ≤ (i 1).val ∧ (i 1).val < win0_5.index _ (1 : Fin 2) * 512 + 512
    rw [e51]
    show (16 * ((i 0).val / 1024) + 2 * ((i 1).val / 512) + 1) / 2 % 8 * 512 ≤ (i 1).val
      ∧ (i 1).val < (16 * ((i 0).val / 1024) + 2 * ((i 1).val / 512) + 1) / 2 % 8 * 512 + 512
    omega

/-- THE RESULT ARRAY after the run is `result`. -/
theorem final (c : Dev nD) (hx : ∀ i, ∃ r : ℝ, argX m c i = (r : EReal)) (hA : ∀ i, ∃ r : ℝ, argA m c i = (r : EReal))
    (hB : ∀ i, ∃ r : ℝ, argB m c i = (r : EReal)) (hs : ∃ r : ℝ, scale = (r : EReal)) :
    (dats m 0 c).arrAt 5 cfg0.N = result m c :=
  (dats m 0 c).arrAt_eq_of_cover 5 (result m c) (written_eq m c hx hA hB hs) cover

/-- The run, read: the result array at `result`, the arguments unchanged — where `x`, `A`, `B` are real on every core. -/
theorem run (hs : ∃ r : ℝ, scale = (r : EReal))
    (hfin : ∀ c : Dev nD, (∀ i, ∃ r : ℝ, argX m c i = (r : EReal)) ∧ (∀ i, ∃ r : ℝ, argA m c i = (r : EReal))
      ∧ (∀ i, ∃ r : ℝ, argB m c i = (r : EReal))) :
    θ_run defs (onTc (τ := τ) (main (F := Ideal))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c =>
      ⟨(h c).1.trans (final m c (hfin c).1 (hfin c).2.1 (hfin c).2.2 hs), (h c).2⟩)
    (Value.run_blocks m ρ)

end Cert.KernelIdeal.Tiled

end
-- ==== Proof.RefSide.lean ====
/-
  The reference, read at an index. Its result is the last of thirteen host operations; read one at a time at an index
  `(t, o)` — a transpose swaps the two coordinates, a `dot_general` is the sum over its contracted coordinate, a broadcast
  forgets the coordinates it adds — they compose to

      (∑ₙ x[t, n] · W[o, n] + b[o]) + ∑ₙ x[t, n] · (1.0 · ∑ᵣ A[o, r] · B[n, r]),

  which is `Spec.lora` at the scale 1.0 the program spells.
-/
import proofs.«115972_j17188459119051_2_alg».proof.Proof.Gen.ReferenceIdeal.Read
import proofs.«115972_j17188459119051_2_alg».proof.Proof.Spec

noncomputable section

namespace Cert.RefSide

open Cert.ReferenceIdeal Cert.ReferenceIdeal.Read Idealize.ShloMosaic Idealize.ShloMosaic.ValueIdx

/-- The reference's result array is `Spec.lora` of its five arguments. -/
theorem result_eq (x : (⟨S8192x4096, .f32⟩ : BufTy).Contents (Elt Ideal)) (W : (⟨S4096x4096, .f32⟩ : BufTy).Contents (Elt Ideal))
    (b : (⟨S4096, .f32⟩ : BufTy).Contents (Elt Ideal)) (A B : (⟨S4096x8, .f32⟩ : BufTy).Contents (Elt Ideal)) :
    val_main_v11 (F := Ideal) x W b A B = Cert.Spec.lora (Ideal.ofBits .f32 0x3F800000#32) x W b A B := by
  funext i
  -- where each operation reads its operands, in coordinates
  have e5l : ∀ k : Fin 4096, lidx_main_v5 i k = ix2 (i 0) k := fun k =>
    funext fun a => Fin.ext (by match a with | ⟨0, _⟩ => rfl | ⟨1, _⟩ => rfl)
  have e5r : ∀ k : Fin 4096, idx_main_v4 (ridx_main_v5 i k) = ix2 (i 1) k := fun k =>
    funext fun a => Fin.ext (by match a with | ⟨0, _⟩ => rfl | ⟨1, _⟩ => rfl)
  have e7 : idx_main_v6 (idx_main_v7 i) = ix1 (i 1) :=
    funext fun a => Fin.ext (by match a with | ⟨0, _⟩ => rfl)
  have e10l : ∀ k : Fin 4096, lidx_main_v10 i k = ix2 (i 0) k := fun k =>
    funext fun a => Fin.ext (by match a with | ⟨0, _⟩ => rfl | ⟨1, _⟩ => rfl)
  have e1l : ∀ (k : Fin 4096) (r : Fin 8), lidx_main_v1 (idx_main_v9 (ridx_main_v10 i k)) r = ix2 (i 1) r := fun k r =>
    funext fun a => Fin.ext (by match a with | ⟨0, _⟩ => rfl | ⟨1, _⟩ => rfl)
  have e1r : ∀ (k : Fin 4096) (r : Fin 8), idx_main_v0 (ridx_main_v1 (idx_main_v9 (ridx_main_v10 i k)) r) = ix2 k r := fun k r =>
    funext fun a => Fin.ext (by match a with | ⟨0, _⟩ => rfl | ⟨1, _⟩ => rfl)
  rw [val_main_v11_apply, val_main_v8_apply, val_main_v5_apply, val_main_v7_apply, val_main_v6_apply, val_main_v10_apply]
  simp only [val_main_v4_apply, val_main_v9_apply, val_main_v3_apply, val_main_v2_apply, val_main_cst_apply,
    val_main_v1_apply, val_main_v0_apply, Ideal.addf_def, Ideal.mulf_def, Ideal.ofBits_def, e5l, e5r, e7, e10l, e1l, e1r]
  rfl

end Cert.RefSide

end
-- ==== Proof.LibFiniteEntry.lean ====
/-
  The "every input is finite" precondition, read at one entry, on the extended reals.

  Such a precondition tests each float argument `x` by `all (|x| < +inf)`: elementwise `|x[i]| < inf` against the f32
  pattern `0x7F800000`, reduced by `and` to one bit. There `|a| = max a (-a)`, the pattern is `⊤`, and `max a (-a) < ⊤`
  excludes both `a = ⊤` and `a = ⊥`: the entry is a real number (`entry_real`, for an array of any shape, from its
  elementwise test being 1 at that entry; the reduction's bit gives that through `Host.reduce_andi_all`, which asks for
  the `Subsingleton` instance below). Also here: the f32 pattern of 1.0 is the real number 1 (`ofBits_one_real`).
-/
import Idealize.ShloMosaic.PureOps.Ideal
import Idealize.ShloMosaic.Lib.ReduceAll

noncomputable section

namespace Cert.Lib.FiniteEntry

open Idealize.ShloMosaic

/-- The scalar shape has one index. -/
instance : Subsingleton (⟨0, ![]⟩ : Shape).Idx := ⟨fun a b => funext fun d => d.elim0⟩

/-- The f32 pattern `0x7F800000` is `+inf`. -/
theorem ofBits_inf : Ideal.ofBits .f32 0x7F800000#32 = ⊤ := by
  simp [Ideal.ofBits, Ideal.ieee]

/-- The f32 pattern `0x3F800000` is the real number 1. -/
theorem ofBits_one_real : ∃ r : ℝ, Ideal.ofBits .f32 0x3F800000#32 = (r : EReal) :=
  ⟨1, by simp [Ideal.ofBits, Ideal.ieee, -EReal.coe_mul]; norm_num⟩

/-- An extended real whose absolute value is below `+inf` is a real number. -/
theorem real_of_abs_lt_inf (a : EReal) (h : Ideal.cmp .olt (max a (-a)) (Ideal.ofBits .f32 0x7F800000#32) = 1#1) :
    ∃ r : ℝ, a = (r : EReal) := by
  rw [ofBits_inf] at h
  induction a using EReal.rec with
  | bot => simp [Ideal.cmp] at h
  | coe r => exact ⟨r, rfl⟩
  | top => simp [Ideal.cmp] at h

/-- One argument's elementwise test `|x| < inf`, 1 at entry `i`: that entry is a real number. -/
theorem entry_real {s : Shape} (hb : (⟨0, ![]⟩ : Shape).BroadcastsInDim s (![] : Fin 0 → Fin s.rank)) (x : FVec Ideal s .f32)
    (i : s.Idx)
    (h : cmpf .olt (Host.absf x) (broadcastInDim s ![] hb (constant (F := Ideal) ⟨0, ![]⟩ .f32 0x7F800000#32)) i = 1#1) :
    ∃ r : ℝ, x i = (r : EReal) :=
  real_of_abs_lt_inf (x i) h

end Cert.Lib.FiniteEntry

end
-- ==== Proof.Finite.lean ====
/-
  What the precondition says. It is the conjunction, over the five arguments, of "every entry's absolute value is below
  +inf". On the extended reals `|a| = max a (-a)`, and `max a (-a) < ⊤` rules out both `a = ⊤` and `a = ⊥`: such an
  entry is a real number. The low-rank law needs that of `x`, `A` and `B`.
-/
import proofs.«115972_j17188459119051_2_alg».proof.Pre_finite_inputs
import Idealize.ShloMosaic.PureOps.Ideal
import Idealize.ShloMosaic.Lib.ReduceAll
import Idealize.ShloMosaic.Lib.ValueIdx
import proofs.«115972_j17188459119051_2_alg».proof.Proof.LibFiniteEntry

noncomputable section

namespace Cert.Finite

open Idealize.ShloMosaic Cert.Pre_finite_inputs Cert.Lib.FiniteEntry

variable [Cert.Pre_finite_inputs.Facts]

/-- Under the precondition every entry of `x`, of `A` and of `B` is a real number. -/
theorem real_of_pre (x : FVec Ideal S8192x4096 .f32) (W : FVec Ideal S4096x4096 .f32) (b : FVec Ideal S4096 .f32)
    (A B : FVec Ideal S4096x8 .f32) (h : Cert.Pre_finite_inputs.fn (F := Ideal) x W b A B = fun _ => 1#1) :
    (∀ i, ∃ r : ℝ, x i = (r : EReal)) ∧ (∀ i, ∃ r : ℝ, A i = (r : EReal)) ∧ (∀ i, ∃ r : ℝ, B i = (r : EReal)) := by
  have h0 := congrFun h ValueIdx.ix0
  dsimp only [Cert.Pre_finite_inputs.fn, Cert.Pre_finite_inputs.fn_part1] at h0
  obtain ⟨h1, hB⟩ := IntOp.andi_eq_one.1 h0
  obtain ⟨h2, hA⟩ := IntOp.andi_eq_one.1 h1
  obtain ⟨h3, -⟩ := IntOp.andi_eq_one.1 h2
  obtain ⟨hx, -⟩ := IntOp.andi_eq_one.1 h3
  refine ⟨fun i => ?_, fun i => ?_, fun i => ?_⟩
  · exact entry_real _ x i (Host.reduce_andi_all _ _ _ _ ValueIdx.ix0 hx i)
  · exact entry_real _ A i (Host.reduce_andi_all _ _ _ _ ValueIdx.ix0 hA i)
  · exact entry_real _ B i (Host.reduce_andi_all _ _ _ _ ValueIdx.ix0 hB i)

/-- The scale both programs multiply the low-rank factor by, the f32 pattern of 1.0, is a real number. -/
theorem scale_real : ∃ r : ℝ, Ideal.ofBits .f32 0x3F800000#32 = (r : EReal) := ofBits_one_real

end Cert.Finite

end
-- ==== Proof.lean ====
/-
  A linear layer with a rank-8 additive update, `out = x·Wᵀ + b + x·(s·A·Bᵀ)ᵀ` over `x` [8192, 4096], `W` [4096, 4096],
  `b` [4096], `A`, `B` [4096, 8], scale `s = 1.0`.

  The reference forms the [4096, 4096] update `s·A·Bᵀ` and applies it to `x`. The tiled program never forms it: before the
  call it computes the thin product `s·(x·B)` [8192, 8]; in the call, over an 8 × 8 × 2 grid, it accumulates `x·Wᵀ` for a
  [1024, 512] tile in two steps of the contraction axis and, at the second step, writes the accumulator plus the bias plus
  `(s·x·B)·Aᵀ`. On the extended reals the two agree entry by entry: the two-step accumulation is a regrouping of one sum,
  and `∑ᵣ (s·∑ₙ xₙ·Bₙᵣ)·Aᵣ = ∑ₙ xₙ·(s·∑ᵣ Aᵣ·Bₙᵣ)` by distributivity and an exchange of sums — valid because the
  precondition makes every entry of `x`, `A` and `B` a real number (it fails at the infinities). Changes of float format
  are the identity there, and nothing was rewritten between the program and its idealization.

  Spec: the common function and the law · RefSide: the reference is that function · Pieces, Payload, Blocks: what the
  body leaves, read at an entry, over which rows and columns · Tiled: the tiled program's array is that function ·
  Finite: the precondition makes the entries real.
-/
import proofs.«115972_j17188459119051_2_alg».proof.Defs
import proofs.«115972_j17188459119051_2_alg».proof.Proof.Gen.Kernel
import proofs.«115972_j17188459119051_2_alg».proof.Proof.Gen.Kernel.Skeleton
import proofs.«115972_j17188459119051_2_alg».proof.Proof.Gen.Kernel.Launch
import proofs.«115972_j17188459119051_2_alg».proof.Proof.Gen.Kernel.Points
import proofs.«115972_j17188459119051_2_alg».proof.Proof.Gen.Kernel.Frame
import proofs.«115972_j17188459119051_2_alg».proof.Proof.Gen.KernelIdeal
import proofs.«115972_j17188459119051_2_alg».proof.Proof.Gen.KernelIdeal.Skeleton
import proofs.«115972_j17188459119051_2_alg».proof.Proof.Gen.KernelIdeal.Launch
import proofs.«115972_j17188459119051_2_alg».proof.Proof.Gen.KernelIdeal.Points
import proofs.«115972_j17188459119051_2_alg».proof.Proof.Gen.KernelIdeal.Frame
import proofs.«115972_j17188459119051_2_alg».proof.Proof.Gen.ReferenceIdeal
import proofs.«115972_j17188459119051_2_alg».proof.Proof.Gen.Pre_finite_inputs
import proofs.«115972_j17188459119051_2_alg».proof.Proof.Gen.KernelIdeal.Value
import proofs.«115972_j17188459119051_2_alg».proof.Proof.Gen.ReferenceIdeal.Run
import proofs.«115972_j17188459119051_2_alg».proof.Proof.Gen.ReferenceIdeal.Read
import proofs.«115972_j17188459119051_2_alg».proof.Proof.Tiled
import proofs.«115972_j17188459119051_2_alg».proof.Proof.RefSide
import proofs.«115972_j17188459119051_2_alg».proof.Proof.Finite
import Idealize.ShloMosaic.Adequacy
import Idealize.ShloMosaic.Init

noncomputable section

namespace Cert.Proof

open Idealize.ShloMosaic Idealize.SL.Sem

/-- The program runs and leaves its arguments as they were. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- So does the reference: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten between the program and its idealization. -/
theorem preserves : Cert.preserves_Kernel_KernelIdeal := trivial

/-- Both idealized programs end with `Spec.lora` of the arguments in their result arrays. -/
theorem algebraic : Cert.algebraic_KernelIdeal_ReferenceIdeal := by
  intro m ρ m' ρ' hpre hagree
  have hfin : ∀ c : Dev Cert.KernelIdeal.nD,
      (∀ i, ∃ r : ℝ, Cert.KernelIdeal.Blocks.argX m c i = (r : EReal))
      ∧ (∀ i, ∃ r : ℝ, Cert.KernelIdeal.Blocks.argA m c i = (r : EReal))
      ∧ (∀ i, ∃ r : ℝ, Cert.KernelIdeal.Blocks.argB m c i = (r : EReal)) :=
    fun c => Cert.Finite.real_of_pre _ _ _ _ _ (hpre c)
  refine ⟨fun c => Cert.KernelIdeal.Tiled.result m c, Cert.KernelIdeal.Tiled.run m ρ Cert.Finite.scale_real hfin, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, Cert.RefSide.result_eq, (hagree c).1, (hagree c).2.1, (hagree c).2.2.1,
    (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
